-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x4096 32) (main_arg2 : FVec F S4096 .f32) (main_arg3 : FVec F S4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8192x4096, .bf16⟩
  | .hbm, ⟨6, _⟩ => ⟨S4096x4096, .bf16⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  reducesTo_S8192x4096_S8192_d1 : S8192x4096.ReducesTo [1] S8192
  h_S_ : 0 < S_.numel
  bcast_S8192_S8192x1_0 : S8192.BroadcastsInDim S8192x1 (![0] : Fin 1 → Fin S8192x1.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x1, .f32⟩
  | .hbm, ⟨7, _⟩ => ⟨S4096x4096, .f32⟩
  | .hbm, ⟨8, _⟩ => ⟨S4096x4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one run of the kernel body leaves behind, case by case, as values.

  The body keeps a running [1024, 1024] f32 accumulator in a scratch buffer across the grid's innermost axis. At each
  point it (1) clears the accumulator when the innermost coordinate is 0, (2) adds to the accumulator the product of
  the two [1024, 512] bf16 input blocks contracted over their second axes, and (3) when the innermost coordinate is the
  last one, combines the accumulator with four small blocks (a column and three rows) and writes the result to the
  output block. Three control cases arise: A (clear, accumulate), B (accumulate only), C (accumulate, then finish).

  Each case's run records the list of covering stores every buffer ends with; since every store here covers its
  whole buffer from offset (0, 0), the buffer's final contents are simply the payload of the last store, and every
  load the payloads mention reads a whole buffer, i.e. the contents that buffer holds at that moment. This module
  makes that reading explicit: the accumulator ends as "previous accumulator (or the zero block, in case A) plus the
  block product", and in case C the output block ends as the finishing expression of that new accumulator.
  All statements hold for any float interpretation F.
-/
import proofs.«136641_j48086453846078_2_alg».proof.Proof.Gen.KernelIdeal.Frame
import Idealize.ShloMosaic.Lib.Pipeline.Value
import Idealize.ShloMosaic.Lib.Tactic

set_option maxRecDepth 16384

noncomputable section

namespace Cert.QLinear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The literal offsets (0, 0) of every load and store of the body are the all-zero offsets. -/
theorem zero_offsets : (![0, 0] : Fin 2 → Nat) = fun _ => 0 := funext fun a => by fin_cases a <;> rfl

/-- CASE B (neither the first nor the last point of the innermost axis): the accumulator, holding `xs0` when the
    body starts, ends as the accumulation payload of `xs0` and the two input blocks. The case's run found a single
    store covering the whole scratch; its payload loads the scratch and the two inputs whole. -/
theorem sout_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1x1024 .f32) (x4 : Vec F S1x1024 .f32) (x5 : Vec F S1x1024 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero zero_offsets]
  simp only [View.readAt_eq_ld, harg10.read_unread, harg3.read_unread, harg4.read_unread,
    View.ld_unit_zero (S := S1024x1024) zero_offsets, View.ld_unit_zero (S := S1024x512) zero_offsets]

/-- CASE A (first point of the innermost axis): the body first overwrites the whole accumulator with the zero block,
    then accumulates on top of it, so whatever the scratch held before is forgotten: it ends as the accumulation
    payload of the zero block and the two input blocks. The run found two whole-buffer stores; the later one wins,
    and the accumulator it loads is what the earlier one stored. -/
theorem sout_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec F S1024x512 .bf16) (x1 : Vec F S1024x512 .bf16) (x2 : Vec F S1024x1 .f32) (x3 : Vec F S1x1024 .f32) (x4 : Vec F S1x1024 .f32) (x5 : Vec F S1x1024 .f32) :
    sout0_A_0 c i arg3 harg3 arg4 harg4 arg5 harg5 arg6 harg6 arg7 harg7 arg8 harg8 arg9 harg9 arg10 harg10 hc0 hc1 x0 x1 x2 x3 x4 x5 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x512) zero_offsets]

/-- CASE C (last point of the innermost axis), the accumulator: exactly as in case B, the finishing step only reads
    the scratch, so it ends as the accumulation payload of `xs0` and the two input blocks. -/
theorem sout_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .bf16) (x1 : Vec F S1024x512 .bf16) (x2 : Vec F S1024x1 .f32) (x3 : Vec F S1x1024 .f32) (x4 : Vec F S1x1024 .f32) (x5 : Vec F S1x1024 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = k0_pay2 xs0 x0 x1 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero zero_offsets]
  simp only [View.readAt_eq_ld, harg10.read_unread, harg3.read_unread, harg4.read_unread,
    View.ld_unit_zero (S := S1024x1024) zero_offsets, View.ld_unit_zero (S := S1024x512) zero_offsets]

/-- CASE C, the output block: the finishing payload of the NEW accumulator (the accumulation payload of `xs0` and the
    two input blocks, loaded back whole from the scratch just stored) and the four small blocks, in the order the
    body loads them: the column block `x2`, then the row blocks `x4`, `x3`, `x5`. -/
theorem out_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .bf16) (x1 : Vec F S1024x512 .bf16) (x2 : Vec F S1024x1 .f32) (x3 : Vec F S1x1024 .f32) (x4 : Vec F S1x1024 .f32) (x5 : Vec F S1x1024 .f32) (xs0 : Vec F S1024x1024 .f32) :
    out0_C_6 c i arg3 harg3 arg4 harg4 arg5 harg5 arg6 harg6 arg7 harg7 arg8 harg8 arg9 harg9 arg10 harg10 hc0 hc1 x0 x1 x2 x3 x4 x5 xs0 = k0_pay3 (k0_pay2 xs0 x0 x1) x2 x4 x3 x5 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero zero_offsets, View.readCov_unit_zero (S := S1024x1024) _ zero_offsets]
  simp only [View.readAt_eq_ld, harg10.read_unread, harg3.read_unread, harg4.read_unread, harg5.read_unread,
    harg6.read_unread, harg7.read_unread, harg8.read_unread, View.ld_unit_zero (S := S1024x1024) zero_offsets,
    View.ld_unit_zero (S := S1024x512) zero_offsets, View.ld_unit_zero (S := S1024x1) zero_offsets, View.ld_unit_zero (S := S1x1024) zero_offsets]

end Cert.QLinear

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Payload.lean ====
/-
  The kernel body writes three pure values. Each is read here at one index of its result, at the ideal
  (extended-real) values, as a closed expression in the elements of the vectors it was computed from:

  * the first is the f32 zero splat, cast to its own shape: it is zero everywhere;
  * the second is the accumulator plus a matrix product that contracts axis 1 of both operands, so its
    element at (p, q) is the accumulator's element there plus the sum over k of row p of the left operand
    times row q of the right operand;
  * the third is the de-quantisation epilogue: a column of shape [1024, 1] repeated along the lanes and
    three rows of shape [1, 1024] repeated along the sublanes, combined pointwise with the accumulator, so
    its element at (p, q) uses the column's element p and the rows' elements q.
-/
import proofs.«136641_j48086453846078_2_alg».proof.Proof.Gen.KernelIdeal.Skeleton
import proofs.«136641_j48086453846078_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.QLinear

open Cert.KernelIdeal Cert.KernelIdeal.Gen Idealize.ShloMosaic Idealize.ShloMosaic.ValueIdx Idealize.SL.Sem

/-- The zero splat, cast to the shape it already has, is the extended real zero at every index. -/
theorem pay1_apply (j : S1024x1024.Idx) : (k0_pay1 (F := Ideal)) j = 0 := by
  unfold k0_pay1
  simp only [shapeCast_self]
  exact Ideal.ofBits_zero_f32

/-- The matrix product's left operand index, on the axis it does not contract, is the result's row. -/
theorem lhs_row (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- The right operand's index, on the axis it does not contract, is the result's column: the right operand
    is read by rows too. -/
theorem rhs_row (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- The accumulator plus the matrix product into the zero splat: the product contracts axis 1 of both
    operands, so the element at (p, q) adds, to the accumulator's element, the sum over k of the left
    operand at (p, k) times the right operand at (q, k). -/
theorem pay2_apply (v3 : Vec Ideal S1024x1024 .f32) (v4 v6 : Vec Ideal S1024x512 .bf16) (p q : Fin 1024) :
    k0_pay2 (F := Ideal) v3 v4 v6 (ix2 p q) = v3 (ix2 p q) + ∑ kk : Fin 512, v4 (ix2 p kk) * v6 (ix2 q kk) := by
  unfold k0_pay2
  simp only [shapeCast_self, matmul]
  rw [addf_apply, Ideal.matmul_constant_zero_apply,
    ← Equiv.sum_comp (contrEquiv1 dot_S1024x512_S1024x512_S1024x1024_1_1_0_0_n_n 512 rfl rfl).symm]
  refine congrArg (v3 (ix2 p q) + ·) (Finset.sum_congr rfl fun k _ => ?_)
  have hk := contrEquiv1_symm_val dot_S1024x512_S1024x512_S1024x1024_1_1_0_0_n_n 512 rfl rfl k
  have el : dot_S1024x512_S1024x512_S1024x1024_1_1_0_0_n_n.lhsIdx (ix2 p q)
      ((contrEquiv1 dot_S1024x512_S1024x512_S1024x1024_1_1_0_0_n_n 512 rfl rfl).symm k) = ix2 p k :=
    funext fun a => Fin.ext (by
      match a with
      | ⟨0, _⟩ => exact lhs_row _ _
      | ⟨1, _⟩ => exact (dot_S1024x512_S1024x512_S1024x1024_1_1_0_0_n_n.lhsIdx_val_of_single rfl _ _).trans hk)
  have er : dot_S1024x512_S1024x512_S1024x1024_1_1_0_0_n_n.rhsIdx (ix2 p q)
      ((contrEquiv1 dot_S1024x512_S1024x512_S1024x1024_1_1_0_0_n_n 512 rfl rfl).symm k) = ix2 q k :=
    funext fun a => Fin.ext (by
      match a with
      | ⟨0, _⟩ => exact rhs_row _ _
      | ⟨1, _⟩ => exact (dot_S1024x512_S1024x512_S1024x1024_1_1_0_0_n_n.rhsIdx_val_of_single rfl _ _).trans hk)
  rw [el, er]

/-- The epilogue at (p, q): the accumulator's element less the column's element p times the first row's
    element q, times the second row's element q, plus the third row's element q. -/
theorem pay3_apply (v16 : Vec Ideal S1024x1024 .f32) (v17 : Vec Ideal S1024x1 .f32) (v19 v25 v29 : Vec Ideal S1x1024 .f32) (p q : Fin 1024) :
    k0_pay3 (F := Ideal) v16 v17 v19 v25 v29 (ix2 p q)
      = (v16 (ix2 p q) - v17 (ix2 p (0 : Fin 1)) * v19 (ix2 (0 : Fin 1) q)) * v25 (ix2 (0 : Fin 1) q) + v29 (ix2 (0 : Fin 1) q) := by
  unfold k0_pay3
  simp only [shapeCast_self]
  have h17 := Cert.Lib.broadcastTo_a1_ab_apply v17 broadcasts_S1024x1_S1024x1024 p q
  have h19 := broadcastTo_1b_ab_apply v19 broadcasts_S1x1024_S1024x1024 p q
  have h25 := broadcastTo_1b_ab_apply v25 broadcasts_S1x1024_S1024x1024 p q
  have h29 := broadcastTo_1b_ab_apply v29 broadcasts_S1x1024_S1024x1024 p q
  rw [addf_apply, mulf_apply, subf_apply, mulf_apply, h17, h19, h25, h29]

end Cert.QLinear

end
-- ==== Proof.Blocks.lean ====
/-
  Where the blocks sit.

  The grid has 8 × 4 × 8 points; point `t` is `(i, j, k) = (t / 32, t / 8 % 4, t % 8)`: row block `i` of the input,
  row block `j` of the weights (a column block of the output), chunk `k` of the contracted axis. At that point the
  body sees rows `1024 i …` and columns `512 k …` of the input, rows `1024 j …` and columns `512 k …` of the weights,
  rows `1024 i …` of the row-sum column, columns `1024 j …` of the scale, zero-point and bias rows, and writes rows
  `1024 i …`, columns `1024 j …` of the output. An element of a block sits in its array, on each axis, at the block
  index times the block's extent plus its own coordinate. The output is written back at the last chunk, `k = 7`,
  and those 32 blocks tile the output array.
-/
import proofs.«136641_j48086453846078_2_alg».proof.Proof.Gen.KernelIdeal.Value
import Idealize.ShloMosaic.Lib.Pipeline.Value
import Idealize.ShloMosaic.Lib.ValueIdx

set_option maxRecDepth 16384

noncomputable section

namespace Cert.QLinear

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

/-- The printed index maps at every grid point, decided over the grid: point `t` is `(t / 32, t / 8 % 4, t % 8)`, and
    each window's block index is the pair of those coordinates its map names (zero on a unit axis). -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = 0
    ∧ win0_3.index t (0 : Fin 2) = 0 ∧ win0_3.index t (1 : Fin 2) = t.val / 8 % 4
    ∧ win0_4.index t (0 : Fin 2) = 0 ∧ win0_4.index t (1 : Fin 2) = t.val / 8 % 4
    ∧ win0_5.index t (0 : Fin 2) = 0 ∧ win0_5.index t (1 : Fin 2) = t.val / 8 % 4
    ∧ win0_6.index t (0 : Fin 2) = t.val / 32 ∧ win0_6.index t (1 : Fin 2) = t.val / 8 % 4 :=
  (by decide +kernel : ∀ t : Fin grid0.N, _)

/-- The input block at point `t`: entry `(p, kk)` is the array's entry `(1024 (t / 32) + p, 512 (t % 8) + kk)`. -/
theorem blk0_apply (c : Dev nD) (t : Fin cfg0.N) (p : Fin 1024) (kk : Fin 512) (a : Fin 8192) (k : Fin 4096)
    (ha : a.val = 1024 * (t.val / 32) + p.val) (hk : k.val = 512 * (t.val % 8) + kk.val) :
    (iblk m c 0 t : Vec F S1024x512 .bf16) (ix2 p kk) = (V m c main_v0 : Vec F S8192x4096 .bf16) (ix2 a k) := by
  obtain ⟨e0, e1, -⟩ := idx_facts t
  unfold iblk
  rw [View.read_apply]
  show V m c main_v0 _ = V m c main_v0 _
  congr 1
  funext d; apply Fin.ext
  match d with
  | ⟨0, _⟩ => show win0_0.index t (0 : Fin 2) * 1024 + 1 * p.val = a.val; rw [e0, ha]; omega
  | ⟨1, _⟩ => show win0_0.index t (1 : Fin 2) * 512 + 1 * kk.val = k.val; rw [e1, hk]; omega

/-- The weight block at point `t`: entry `(q, kk)` is the array's entry `(1024 (t / 8 % 4) + q, 512 (t % 8) + kk)`. -/
theorem blk1_apply (c : Dev nD) (t : Fin cfg0.N) (q : Fin 1024) (kk : Fin 512) (b k : Fin 4096)
    (hb : b.val = 1024 * (t.val / 8 % 4) + q.val) (hk : k.val = 512 * (t.val % 8) + kk.val) :
    (iblk m c 1 t : Vec F S1024x512 .bf16) (ix2 q kk) = (V m c main_v1 : Vec F S4096x4096 .bf16) (ix2 b k) := by
  obtain ⟨-, -, e0, e1, -⟩ := idx_facts t
  unfold iblk
  rw [View.read_apply]
  show V m c main_v1 _ = V m c main_v1 _
  congr 1
  funext d; apply Fin.ext
  match d with
  | ⟨0, _⟩ => show win0_1.index t (0 : Fin 2) * 1024 + 1 * q.val = b.val; rw [e0, hb]; omega
  | ⟨1, _⟩ => show win0_1.index t (1 : Fin 2) * 512 + 1 * kk.val = k.val; rw [e1, hk]; omega

/-- The row-sum column's block at point `t`: entry `(p, 0)` is the column's entry `1024 (t / 32) + p`. -/
theorem blk2_apply (c : Dev nD) (t : Fin cfg0.N) (p : Fin 1024) (u : Fin 1) (a : Fin 8192)
    (ha : a.val = 1024 * (t.val / 32) + p.val) :
    (iblk m c 2 t : Vec F S1024x1 .f32) (ix2 p u) = (V m c main_v3 : Vec F S8192x1 .f32) (ix2 a u) := by
  obtain ⟨-, -, -, -, e0, e1, -⟩ := idx_facts t
  have hu : u.val = 0 := by omega
  unfold iblk
  rw [View.read_apply]
  show V m c main_v3 _ = V m c main_v3 _
  congr 1
  funext d; apply Fin.ext
  match d with
  | ⟨0, _⟩ => show win0_2.index t (0 : Fin 2) * 1024 + 1 * p.val = a.val; rw [e0, ha]; omega
  | ⟨1, _⟩ => show win0_2.index t (1 : Fin 2) * 1 + 1 * u.val = u.val; rw [e1]; omega

/-- The scale row's block at point `t`: entry `(0, q)` is the row's entry `1024 (t / 8 % 4) + q`. -/
theorem blk3_apply (c : Dev nD) (t : Fin cfg0.N) (u : Fin 1) (q : Fin 1024) (b : Fin 4096)
    (hb : b.val = 1024 * (t.val / 8 % 4) + q.val) :
    (iblk m c 3 t : Vec F S1x1024 .f32) (ix2 u q) = (V m c main_v4 : Vec F S1x4096 .f32) (ix2 u b) := by
  obtain ⟨-, -, -, -, -, -, e0, e1, -⟩ := idx_facts t
  have hu : u.val = 0 := by omega
  unfold iblk
  rw [View.read_apply]
  show V m c main_v4 _ = V m c main_v4 _
  congr 1
  funext d; apply Fin.ext
  match d with
  | ⟨0, _⟩ => show win0_3.index t (0 : Fin 2) * 1 + 1 * u.val = u.val; rw [e0]; omega
  | ⟨1, _⟩ => show win0_3.index t (1 : Fin 2) * 1024 + 1 * q.val = b.val; rw [e1, hb]; omega

/-- The zero-point row's block at point `t`, likewise. -/
theorem blk4_apply (c : Dev nD) (t : Fin cfg0.N) (u : Fin 1) (q : Fin 1024) (b : Fin 4096)
    (hb : b.val = 1024 * (t.val / 8 % 4) + q.val) :
    (iblk m c 4 t : Vec F S1x1024 .f32) (ix2 u q) = (V m c main_v5 : Vec F S1x4096 .f32) (ix2 u b) := by
  obtain ⟨-, -, -, -, -, -, -, -, e0, e1, -⟩ := idx_facts t
  have hu : u.val = 0 := by omega
  unfold iblk
  rw [View.read_apply]
  show V m c main_v5 _ = V m c main_v5 _
  congr 1
  funext d; apply Fin.ext
  match d with
  | ⟨0, _⟩ => show win0_4.index t (0 : Fin 2) * 1 + 1 * u.val = u.val; rw [e0]; omega
  | ⟨1, _⟩ => show win0_4.index t (1 : Fin 2) * 1024 + 1 * q.val = b.val; rw [e1, hb]; omega

/-- The bias row's block at point `t`, likewise. -/
theorem blk5_apply (c : Dev nD) (t : Fin cfg0.N) (u : Fin 1) (q : Fin 1024) (b : Fin 4096)
    (hb : b.val = 1024 * (t.val / 8 % 4) + q.val) :
    (iblk m c 5 t : Vec F S1x1024 .f32) (ix2 u q) = (V m c main_v6 : Vec F S1x4096 .f32) (ix2 u b) := by
  obtain ⟨-, -, -, -, -, -, -, -, -, -, e0, e1, -⟩ := idx_facts t
  have hu : u.val = 0 := by omega
  unfold iblk
  rw [View.read_apply]
  show V m c main_v6 _ = V m c main_v6 _
  congr 1
  funext d; apply Fin.ext
  match d with
  | ⟨0, _⟩ => show win0_5.index t (0 : Fin 2) * 1 + 1 * u.val = u.val; rw [e0]; omega
  | ⟨1, _⟩ => show win0_5.index t (1 : Fin 2) * 1024 + 1 * q.val = b.val; rw [e1, hb]; omega

/-- An element `y` of the output block at point `t` sits in the output array at
    `(1024 (t / 32) + y 0, 1024 (t / 8 % 4) + y 1)`. -/
theorem emb6_val (t : Fin cfg0.N) (y : S1024x1024.Idx) :
    ((((cfg0.win 6).blk t).view.emb y : S8192x4096.Idx) 0).val = 1024 * (t.val / 32) + (y 0).val
    ∧ ((((cfg0.win 6).blk t).view.emb y : S8192x4096.Idx) 1).val = 1024 * (t.val / 8 % 4) + (y 1).val := by
  obtain ⟨-, -, -, -, -, -, -, -, -, -, -, -, e0, e1⟩ := idx_facts t
  constructor
  · show win0_6.index t (0 : Fin 2) * 1024 + 1 * (y 0).val = _; rw [e0]; omega
  · show win0_6.index t (1 : Fin 2) * 1024 + 1 * (y 1).val = _; rw [e1]; omega

/-- An index of the output array is in point `t`'s block iff each coordinate is in the block's range on its axis. -/
theorem mem_blk6 (t : Fin cfg0.N) (i : S8192x4096.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v7).slice (win0_6.rect t)).set ↔ _
  rw [View.set_slice_whole, Rect.mem_set_unit]
  exact Iff.rfl

/-- THE COVER: every index `(r, s)` of the output array is in the block written back at the point
    `(r / 1024, s / 1024, 7)`. -/
theorem cover6 (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 256 := N_0
  have hlt : 32 * ((i 0).val / 1024) + 8 * ((i 1).val / 1024) + 7 < cfg0.N := by rw [hN]; omega
  refine ⟨⟨32 * ((i 0).val / 1024) + 8 * ((i 1).val / 1024) + 7, hlt⟩, ?_, ?_⟩
  · rw [flush0_6]
    show (32 * ((i 0).val / 1024) + 8 * ((i 1).val / 1024) + 7) % 8 = 7
    omega
  · rw [mem_blk6]
    obtain ⟨-, -, -, -, -, -, -, -, -, -, -, -, e0, e1⟩ :=
      idx_facts ⟨32 * ((i 0).val / 1024) + 8 * ((i 1).val / 1024) + 7, hlt⟩
    intro a
    match a with
    | ⟨0, _⟩ =>
      show win0_6.index _ (0 : Fin 2) * 1024 ≤ (i 0).val ∧ (i 0).val < win0_6.index _ (0 : Fin 2) * 1024 + 1024
      rw [e0]
      show (32 * ((i 0).val / 1024) + 8 * ((i 1).val / 1024) + 7) / 32 * 1024 ≤ (i 0).val
        ∧ (i 0).val < (32 * ((i 0).val / 1024) + 8 * ((i 1).val / 1024) + 7) / 32 * 1024 + 1024
      omega
    | ⟨1, _⟩ =>
      show win0_6.index _ (1 : Fin 2) * 1024 ≤ (i 1).val ∧ (i 1).val < win0_6.index _ (1 : Fin 2) * 1024 + 1024
      rw [e1]
      show (32 * ((i 0).val / 1024) + 8 * ((i 1).val / 1024) + 7) / 8 % 4 * 1024 ≤ (i 1).val
        ∧ (i 1).val < (32 * ((i 0).val / 1024) + 8 * ((i 1).val / 1024) + 7) / 8 % 4 * 1024 + 1024
      omega

end Cert.QLinear

end
-- ==== Proof.Accum.lean ====
/-
  The running accumulator.

  Along the innermost grid axis the body keeps a [1024, 1024] accumulator in scratch: cleared and then increased by
  the first chunk's product at `k = 0`, increased by the next chunk's product at every later `k`. So after the point
  `8 q + j` it holds, at `(p, r)`, zero plus the sum over the points `8 q, …, 8 q + j` of that point's chunk product
  `∑ kk, xblock (p, kk) * wblock (r, kk)` — the run's fold opened once, by induction on `j`, never on the grid.
-/
import proofs.«136641_j48086453846078_2_alg».proof.Proof.Gen.KernelIdeal.Value
import proofs.«136641_j48086453846078_2_alg».proof.Proof.Pieces
import proofs.«136641_j48086453846078_2_alg».proof.Proof.Payload
import Idealize.ShloMosaic.Lib.Pipeline.Value
import Idealize.ShloMosaic.Lib.ValueIdx

set_option maxRecDepth 16384

open scoped BigOperators

noncomputable section

namespace Cert.QLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (c : Dev nD)

/-- Row `p` of one [1024, 512] block against row `r` of another: the sum of the products along the 512 columns. -/
def dotRows (x0 x1 : Vec Ideal S1024x512 .bf16) (p r : Fin 1024) : EReal :=
  ∑ kk : Fin 512, x0 (ix2 p kk) * x1 (ix2 r kk)

/-- The accumulation step at an index: the accumulator there plus the row product of the two blocks. -/
theorem pay2_rows (v3 : Vec Ideal S1024x1024 .f32) (v4 v6 : Vec Ideal S1024x512 .bf16) (p r : Fin 1024) :
    k0_pay2 (F := Ideal) v3 v4 v6 (ix2 p r) = v3 (ix2 p r) + dotRows v4 v6 p r :=
  pay2_apply v3 v4 v6 p r

/-- The chunk product at grid point `n`, at `(p, r)`: row `p` of the point's input block against row `r` of its weight
    block (zero past the grid, where it is never used). -/
def chunk (n : ℕ) (p r : Fin 1024) : EReal :=
  if h : n < cfg0.N then dotRows (iblk m c 0 ⟨n, h⟩) (iblk m c 1 ⟨n, h⟩) p r else 0

/-- At the first point of a run (`k = 0`) the accumulator is cleared and then takes the first chunk's product. -/
theorem scAt_first (n : ℕ) (hb : n < cfg0.N) (h0 : n % 8 = 0) (acc : Vec Ideal S1024x1024 .f32) (p r : Fin 1024) :
    Value.scAt0_0 m c n hb acc (ix2 p r) = 0 + chunk m c n p r := by
  have h1 : ¬ n % 8 = 7 := by omega
  unfold Value.scAt0_0
  rw [dif_pos h0, dif_neg h1]
  refine (congrFun (sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))) (ix2 p r)).trans ?_
  refine (pay2_rows _ (iblk m c 0 (⟨n, hb⟩ : Fin cfg0.N)) (iblk m c 1 (⟨n, hb⟩ : Fin cfg0.N)) p r).trans ?_
  rw [pay1_apply]
  unfold chunk
  rw [dif_pos hb]

/-- At every later point of the run the accumulator grows by that point's chunk product. -/
theorem scAt_later (n : ℕ) (hb : n < cfg0.N) (h0 : ¬ n % 8 = 0) (acc : Vec Ideal S1024x1024 .f32) (p r : Fin 1024) :
    Value.scAt0_0 m c n hb acc (ix2 p r) = acc (ix2 p r) + chunk m c n p r := by
  unfold Value.scAt0_0
  rw [dif_neg h0]
  by_cases h1 : n % 8 = 7
  · rw [dif_pos h1]
    refine (congrFun (sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) (ix2 p r)).trans ?_
    refine (pay2_rows acc (iblk m c 0 (⟨n, hb⟩ : Fin cfg0.N)) (iblk m c 1 (⟨n, hb⟩ : Fin cfg0.N)) p r).trans ?_
    unfold chunk
    rw [dif_pos hb]
  · rw [dif_neg h1]
    refine (congrFun (sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) (ix2 p r)).trans ?_
    refine (pay2_rows acc (iblk m c 0 (⟨n, hb⟩ : Fin cfg0.N)) (iblk m c 1 (⟨n, hb⟩ : Fin cfg0.N)) p r).trans ?_
    unfold chunk
    rw [dif_pos hb]

/-- WHAT THE ACCUMULATOR HOLDS after point `t`: zero plus the chunk products of the points of `t`'s run up to `t`. -/
theorem scratch_after (t : Fin cfg0.N) (p r : Fin 1024) :
    (outsAt0 m c t.val t.isLt).2 (ix2 p r)
      = 0 + ∑ s ∈ Finset.range (t.val % 8 + 1), chunk m c (8 * (t.val / 8) + s) p r := by
  rw [Value.soutsAt0_0_eq m c t]
  exact Pipeline.accAt_add_apply
    (fun n h => Value.scAt0_0 m c n h (VS0_0.read (Elt Ideal) VS0_0.junk)) (Value.scAt0_0 m c) (fun _ => (0 : EReal))
    (fun n (j : S1024x1024.Idx) => chunk m c n ⟨(j 0).val, idx2_lt0 j⟩ ⟨(j 1).val, idx2_lt1 j⟩) (8 * (t.val / 8)) 7
    (fun h i => by
      obtain ⟨p', r', rfl⟩ : ∃ (p' r' : Fin 1024), i = ix2 p' r' := ⟨i 0, i 1, eq_ix2 i⟩
      exact scAt_first m c _ h (by omega) _ p' r')
    (fun n h acc i hbn hne => by
      obtain ⟨p', r', rfl⟩ : ∃ (p' r' : Fin 1024), i = ix2 p' r' := ⟨i 0, i 1, eq_ix2 i⟩
      exact scAt_later m c n h (by omega) acc p' r')
    (t.val % 8) (by omega) _ (ix2 p r)

end Cert.QLinear

end
-- ==== Proof.HostPrefix.lean ====
/-
  The host prefix of the quantized linear layer, read at an index.

  Before the kernel's region runs, the program's entry function prepares the region's six input arrays on the host
  from the five arrays it was launched with: the activations x are re-formatted to a narrower float format, the
  integer weights w_q are converted to floats, each row of x is summed from the scalar zero and the row sums are laid
  out as a column, and three per-output-channel vectors are reshaped into rows. This module says what each of the
  six arrays holds, element by element, when every float is read as the extended real it denotes:

    • a change of float format changes nothing, so the first array is x itself;
    • an integer converted to a float is that integer, read signed, exactly;
    • the column of row sums holds, at row a, zero plus the sum of x over row a;
    • a vector of length n reshaped to one row of length n holds at (0, b) what the vector holds at b.

  Each statement is about the memory as the region finds it, `Gen.V m c`, in terms of the launch memory `m`.
-/
import proofs.«136641_j48086453846078_2_alg».proof.Proof.Gen.KernelIdeal.Frame
import proofs.«136641_j48086453846078_2_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.QLinear

open Cert.KernelIdeal Cert.KernelIdeal.Gen Idealize.ShloMosaic Idealize.ShloMosaic.TcCoe Idealize.SL.Sem
open Idealize.ShloMosaic.ValueIdx
open scoped BigOperators

/-! ## Two host operations read at an index, over any operand -/

/-- The host's sum over the columns of an `[8192, 4096]` array, started from the scalar zero constant, holds at row `a`
    zero plus the sum of that row: the host reduction at the exact values is the initial value plus the sum over the
    reduced axis, the reduced index with the column `k` put back is the pair `(a, k)`, and the zero word denotes `0`. -/
theorem hostRowSum_apply (x : FVec Ideal S8192x4096 .f32) (h' : S8192x4096.ReducesTo [1] S8192) (hu : 0 < S_.numel)
    (a : Fin 8192) :
    Host.reduceAdd (F := Ideal) x (constant (F := Ideal) S_ .f32 0x00000000#32) h' hu (ix1 a)
      = 0 + ∑ k : Fin 4096, x (ix2 a k) := by
  have hR : S8192x4096.Reduces [1] S8192 := by decide
  show Ideal.hostReduceAdd h' x (constant (F := Ideal) S_ .f32 0x00000000#32 (Shape.Idx.first hu)) (ix1 a) = _
  rw [Ideal.hostReduceAdd_single h' hR, constant_apply, Ideal.ofBits_zero_f32]
  exact congrArg (0 + ·) (Finset.sum_congr rfl fun k _ => congrArg x (Cert.Lib.lift_row hR a k))

/-- An `[8192]` array laid out as an `[8192, 1]` column by a broadcast along axis 0 holds, at `(a, u)`, the operand at
    `a`: the operand's one axis is not a unit axis, so its coordinate is the result's coordinate on axis 0. -/
theorem column_apply {α : Type} (v : S8192.Idx → α) (h : S8192.BroadcastsInDim S8192x1 (![0] : Fin 1 → Fin S8192x1.rank))
    (a : Fin 8192) (u : Fin 1) : broadcastInDim S8192x1 ![0] h v (ix2 a u) = v (ix1 a) := by
  refine broadcastInDim_apply (![0] : Fin 1 → Fin S8192x1.rank) h v (ix2 a u) (ix1 a) fun ax => ?_
  match ax with
  | ⟨0, _⟩ => rfl

/-! ## The region's input arrays -/

variable (m : (ℓ : Loc nD τ sig) → Buf (Elt Ideal) ℓ) (c : Dev nD)

/-- The region's first input is `x` in a narrower float format; at the exact values that is `x`. -/
theorem V_v0 (a : Fin 8192) (k : Fin 4096) :
    @Eq EReal ((V m c main_v0 : S8192x4096.Idx → EReal) (ix2 a k)) (m ((c : Thread nD τ).loc main_arg0) (ix2 a k)) := by
  have e : @Eq (S8192x4096.Idx → EReal) (V m c main_v0)
      (truncf (F := Ideal) .bf16 (m ((c : Thread nD τ).loc main_arg0) : FVec Ideal S8192x4096 .f32) Facts₀.bitsLt_bf16_f32) := by
    dsimp only [Gen.V, Gen.hostOps0]; after_results <;> rfl
  rw [e, truncf_apply]

/-- The region's second input is the integer weights converted to floats: each is its integer, read signed. -/
theorem V_v1 (b k : Fin 4096) :
    @Eq EReal ((V m c main_v1 : S4096x4096.Idx → EReal) (ix2 b k))
      (((m ((c : Thread nD τ).loc main_arg1) (ix2 b k)).toInt : ℝ) : EReal) := by
  have e : @Eq (S4096x4096.Idx → EReal) (V m c main_v1)
      (sitofp (F := Ideal) .bf16 (m ((c : Thread nD τ).loc main_arg1) : IVec S4096x4096 32)) := by
    dsimp only [Gen.V, Gen.hostOps0]; after_results <;> rfl
  rw [e, sitofp_apply]
  rfl

/-- The region's third input is the column of the row sums of `x`: at `(a, u)`, zero plus the sum of row `a`. -/
theorem V_v3 (a : Fin 8192) (u : Fin 1) :
    @Eq EReal ((V m c main_v3 : S8192x1.Idx → EReal) (ix2 a u))
      (0 + (∑ k : Fin 4096, m ((c : Thread nD τ).loc main_arg0) (ix2 a k) : EReal)) := by
  have e : (V m c main_v3 : S8192x1.Idx → EReal)
      = broadcastInDim S8192x1 ![0] Facts₀.bcast_S8192_S8192x1_0
          (Host.reduceAdd (F := Ideal) (m ((c : Thread nD τ).loc main_arg0) : FVec Ideal S8192x4096 .f32)
            (constant (F := Ideal) S_ .f32 0x00000000#32) Facts₀.reducesTo_S8192x4096_S8192_d1 Facts₀.h_S_) := by
    dsimp only [Gen.V, Gen.hostOps0]; after_results <;> rfl
  rw [e, column_apply]
  exact hostRowSum_apply _ _ _ a

/-- A length-4096 vector reshaped to a `[1, 4096]` row holds at `(u, b)` the vector's entry `b`: the region's fourth
    input, from the launch's third array. -/
theorem V_v4 (u : Fin 1) (b : Fin 4096) :
    @Eq EReal ((V m c main_v4 : S1x4096.Idx → EReal) (ix2 u b)) (m ((c : Thread nD τ).loc main_arg2) (ix1 b)) := by
  have e : (V m c main_v4 : S1x4096.Idx → EReal)
      = shapeCast S1x4096 (m ((c : Thread nD τ).loc main_arg2) : S4096.Idx → EReal) Facts₀.shapeCasts_S4096_S1x4096 := by
    dsimp only [Gen.V, Gen.hostOps0]; after_results <;> rfl
  rw [e]
  exact shapeCast_a_1a_apply _ _ u b

/-- The region's fifth input, from the launch's fourth array, likewise. -/
theorem V_v5 (u : Fin 1) (b : Fin 4096) :
    @Eq EReal ((V m c main_v5 : S1x4096.Idx → EReal) (ix2 u b)) (m ((c : Thread nD τ).loc main_arg3) (ix1 b)) := by
  have e : (V m c main_v5 : S1x4096.Idx → EReal)
      = shapeCast S1x4096 (m ((c : Thread nD τ).loc main_arg3) : S4096.Idx → EReal) Facts₀.shapeCasts_S4096_S1x4096 := by
    dsimp only [Gen.V, Gen.hostOps0]; after_results <;> rfl
  rw [e]
  exact shapeCast_a_1a_apply _ _ u b

/-- The region's sixth input, from the launch's fifth array, likewise. -/
theorem V_v6 (u : Fin 1) (b : Fin 4096) :
    @Eq EReal ((V m c main_v6 : S1x4096.Idx → EReal) (ix2 u b)) (m ((c : Thread nD τ).loc main_arg4) (ix1 b)) := by
  have e : (V m c main_v6 : S1x4096.Idx → EReal)
      = shapeCast S1x4096 (m ((c : Thread nD τ).loc main_arg4) : S4096.Idx → EReal) Facts₀.shapeCasts_S4096_S1x4096 := by
    dsimp only [Gen.V, Gen.hostOps0]; after_results <;> rfl
  rw [e]
  exact shapeCast_a_1a_apply _ _ u b

end Cert.QLinear

end
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.Spec.lean ====
/-
  The mathematics of the quantized linear layer, with no program in sight.

  A weight row is stored as integers `w k`; its real value is `(w k - z) * s` for the row's zero point `z` and scale
  `s`. The layer's output for an input row `x` is `∑ k, x k * ((w k - z) * s) + b`. Because `z` and `s` do not
  depend on `k` they factor out of the sum:

      ∑ k, x k * ((w k - z) * s) = (∑ k, x k * w k - (∑ k, x k) * z) * s,

  so the sum that costs anything is the plain product `∑ k, x k * w k`, which may be taken in 8 consecutive blocks
  of 512 terms. Factoring out is distributivity, which holds over the reals and FAILS at the infinities of the
  extended reals; so the law is stated for real `x`, `w`, `z`, `s`, `b`, seen inside the extended reals.
-/
import Mathlib
import proofs.«136641_j48086453846078_2_alg».proof.Proof.LibBlockSum

open scoped BigOperators

namespace Cert.QLinear

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- FACTORING THE ZERO POINT AND THE SCALE OUT OF THE SUM, over the reals. -/
theorem real_law {n : ℕ} (X W : Fin n → ℝ) (z s b : ℝ) :
    (∑ k, X k * ((W k - z) * s)) + b = ((∑ k, X k * W k) - (∑ k, X k) * z) * s + b := by
  have h : ∀ k, X k * ((W k - z) * s) = (X k * W k - X k * z) * s := fun k => by ring
  simp_rw [h]
  rw [← Finset.sum_mul, Finset.sum_sub_distrib, ← Finset.sum_mul]

/-- The same inside the extended reals, in the two arrangements the programs compute: on the left the product sum
    taken in 8 blocks of 512 from a zero start, the row sum of `x` from a zero start, the zero point and the scale
    applied once at the end; on the right the dequantized weights inside the sum. -/
theorem law (X W : Fin 4096 → ℝ) (z s b : ℝ) :
    (((0 : EReal) + ∑ t : Fin 8, ∑ kk : Fin 512,
          ((X ⟨512 * t.val + kk.val, LibBlockSum.block_lt (a := 8) t kk⟩ : ℝ) : EReal)
            * ((W ⟨512 * t.val + kk.val, LibBlockSum.block_lt (a := 8) t kk⟩ : ℝ) : EReal))
        - ((0 : EReal) + ∑ k : Fin 4096, ((X k : ℝ) : EReal)) * (z : EReal)) * (s : EReal) + (b : EReal)
      = (∑ k : Fin 4096, ((X k : ℝ) : EReal) * ((((W k : ℝ) : EReal) - (z : EReal)) * (s : EReal))) + (b : EReal) := by
  have hb : (∑ t : Fin 8, ∑ kk : Fin 512,
        ((X ⟨512 * t.val + kk.val, LibBlockSum.block_lt (a := 8) t kk⟩ : ℝ) : EReal)
          * ((W ⟨512 * t.val + kk.val, LibBlockSum.block_lt (a := 8) t kk⟩ : ℝ) : EReal))
      = ∑ k : Fin 4096, ((X k : ℝ) : EReal) * ((W k : ℝ) : EReal) :=
    LibBlockSum.sum_row_blocks (fun k : Fin 4096 => ((X k : ℝ) : EReal) * ((W k : ℝ) : EReal))
  rw [hb]
  simp only [zero_add, ← EReal.coe_mul, ← EReal.coe_sub, ← coe_sum, ← EReal.coe_add]
  rw [real_law]

end Cert.QLinear
-- ==== Proof.Bridge.lean ====
/-
  The two arrangements of the layer's output as functions of the argument arrays, and their equality on finite inputs.

  `kerForm` is what the tiled program computes at output index `(a, b)`: the plain product sum of input row `a` with
  the integer weight row `b`, gathered in 8 chunks of 512 from a zero start; minus the row sum of `x` times the zero
  point; times the scale; plus the bias. `refForm` is what the reference computes: input row `a` against the
  dequantized weight row `b`, plus the bias. When every entry of `x`, the scale, the zero point and the bias is a
  real number the two agree, by factoring the zero point and the scale out of the sum (`law`); the integer weights
  are real numbers as they stand.
-/
import proofs.«136641_j48086453846078_2_alg».proof.Proof.Spec
import Idealize.ShloMosaic.Lib.ValueIdx

open scoped BigOperators

noncomputable section

namespace Cert.QLinear

open Idealize.ShloMosaic Idealize.ShloMosaic.ValueIdx

/-- The tiled program's arrangement at output index `(a, b)`. -/
def kerForm (x : (⟨2, ![8192, 4096]⟩ : Shape).Idx → EReal) (w : (⟨2, ![4096, 4096]⟩ : Shape).Idx → BitVec 32)
    (sc z bi : (⟨1, ![4096]⟩ : Shape).Idx → EReal) (a : Fin 8192) (b : Fin 4096) : EReal :=
  (((0 : EReal) + ∑ s : Fin 8, ∑ kk : Fin 512,
        x (ix2 a (⟨512 * s.val + kk.val, LibBlockSum.block_lt (a := 8) s kk⟩ : Fin 4096))
          * (((w (ix2 b (⟨512 * s.val + kk.val, LibBlockSum.block_lt (a := 8) s kk⟩ : Fin 4096))).toInt : ℝ) : EReal))
      - ((0 : EReal) + ∑ k : Fin 4096, x (ix2 a k)) * z (ix1 b)) * sc (ix1 b) + bi (ix1 b)

/-- The reference's arrangement at output index `(a, b)`. -/
def refForm (x : (⟨2, ![8192, 4096]⟩ : Shape).Idx → EReal) (w : (⟨2, ![4096, 4096]⟩ : Shape).Idx → BitVec 32)
    (sc z bi : (⟨1, ![4096]⟩ : Shape).Idx → EReal) (a : Fin 8192) (b : Fin 4096) : EReal :=
  (∑ k : Fin 4096, x (ix2 a k) * (((((w (ix2 b k)).toInt : ℝ) : EReal) - z (ix1 b)) * sc (ix1 b))) + bi (ix1 b)

/-- On real inputs the two arrangements are one number. -/
theorem ker_eq_ref (x : (⟨2, ![8192, 4096]⟩ : Shape).Idx → EReal) (w : (⟨2, ![4096, 4096]⟩ : Shape).Idx → BitVec 32)
    (sc z bi : (⟨1, ![4096]⟩ : Shape).Idx → EReal)
    (hx : ∀ i, ∃ r : ℝ, x i = (r : EReal)) (hsc : ∀ i, ∃ r : ℝ, sc i = (r : EReal))
    (hz : ∀ i, ∃ r : ℝ, z i = (r : EReal)) (hbi : ∀ i, ∃ r : ℝ, bi i = (r : EReal))
    (a : Fin 8192) (b : Fin 4096) : kerForm x w sc z bi a b = refForm x w sc z bi a b := by
  choose X hX using hx
  choose S hS using hsc
  choose Z hZ using hz
  choose B hB using hbi
  unfold kerForm refForm
  simp only [hX, hS, hZ, hB]
  exact law (fun k => X (ix2 a k)) (fun k => ((w (ix2 b k)).toInt : ℝ)) (Z (ix1 b)) (S (ix1 b)) (B (ix1 b))

end Cert.QLinear

end
-- ==== Proof.Final.lean ====
/-
  The output array after the run, as one function of the argument arrays.

  The output block of the point `(i, j, 7)` is written from the finished accumulator: at `(p, r)` it is
      (acc (p, r) - rowsum (p) * zeropoint (r)) * scale (r) + bias (r),
  where `acc` is what the point before left plus this point's chunk product — zero plus all eight chunk products of
  the run — and the four small blocks are the row-sum column's rows `1024 i …` and the scale, zero-point and bias rows'
  columns `1024 j …`. Reading every block where it sits in its array and every array as the host operations before
  the region wrote it, the entry at `(a, b) = (1024 i + p, 1024 j + r)` is `kerForm` of the argument arrays at
  `(a, b)`. Those 32 written-back blocks tile the output, so the whole array is that function.
-/
import proofs.«136641_j48086453846078_2_alg».proof.Proof.Gen.KernelIdeal.Value
import proofs.«136641_j48086453846078_2_alg».proof.Proof.Pieces
import proofs.«136641_j48086453846078_2_alg».proof.Proof.Payload
import proofs.«136641_j48086453846078_2_alg».proof.Proof.Blocks
import proofs.«136641_j48086453846078_2_alg».proof.Proof.Accum
import proofs.«136641_j48086453846078_2_alg».proof.Proof.HostPrefix
import proofs.«136641_j48086453846078_2_alg».proof.Proof.Bridge
import Idealize.ShloMosaic.Lib.Pipeline.Value
import Idealize.ShloMosaic.Lib.ValueIdx

set_option maxRecDepth 16384

open scoped BigOperators

noncomputable section

namespace Cert.QLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (c : Dev nD)

/-- The argument arrays on core `c`: the input, the integer weights, the scale, the zero point, the bias. -/
abbrev argX : S8192x4096.Idx → EReal := m ((c : Thread nD τ).loc main_arg0)
abbrev argW : S4096x4096.Idx → BitVec 32 := m ((c : Thread nD τ).loc main_arg1)
abbrev argS : S4096.Idx → EReal := m ((c : Thread nD τ).loc main_arg2)
abbrev argZ : S4096.Idx → EReal := m ((c : Thread nD τ).loc main_arg3)
abbrev argB : S4096.Idx → EReal := m ((c : Thread nD τ).loc main_arg4)

/-- What the output array ends holding: the tiled arrangement of the argument arrays at each index. -/
def kerVal : S8192x4096.Idx → EReal := fun i =>
  kerForm (argX m c) (argW m c) (argS m c) (argZ m c) (argB m c) ⟨(i 0).val, idx2_lt0 i⟩ ⟨(i 1).val, idx2_lt1 i⟩

/-- `kerVal` at an index whose coordinates are `a` and `b`. -/
theorem kerVal_at (i : S8192x4096.Idx) (a : Fin 8192) (b : Fin 4096) (ha : (i 0).val = a.val) (hb : (i 1).val = b.val) :
    kerVal m c i = kerForm (argX m c) (argW m c) (argS m c) (argZ m c) (argB m c) a b := by
  have ea : (⟨(i 0).val, idx2_lt0 i⟩ : Fin 8192) = a := Fin.ext ha
  have eb : (⟨(i 1).val, idx2_lt1 i⟩ : Fin 4096) = b := Fin.ext hb
  show kerForm _ _ _ _ _ (⟨(i 0).val, idx2_lt0 i⟩ : Fin 8192) (⟨(i 1).val, idx2_lt1 i⟩ : Fin 4096) = _
  rw [ea, eb]

/-- The chunk product at a point `n = (n / 32, n / 8 % 4, s)`, read in the argument arrays: rows `a` of the input and
    `b` of the weights, columns `512 s …`. -/
theorem chunk_eq (n : ℕ) (hn : n < cfg0.N) (p r : Fin 1024) (a : Fin 8192) (b : Fin 4096) (s : Fin 8)
    (ha : a.val = 1024 * (n / 32) + p.val) (hb : b.val = 1024 * (n / 8 % 4) + r.val) (hs : n % 8 = s.val) :
    chunk m c n p r = ∑ kk : Fin 512,
      argX m c (ix2 a (⟨512 * s.val + kk.val, LibBlockSum.block_lt (a := 8) s kk⟩ : Fin 4096))
        * (((argW m c (ix2 b (⟨512 * s.val + kk.val, LibBlockSum.block_lt (a := 8) s kk⟩ : Fin 4096))).toInt : ℝ) : EReal) := by
  unfold chunk
  rw [dif_pos hn]
  unfold dotRows
  refine Finset.sum_congr rfl fun kk _ => ?_
  rw [blk0_apply m c ⟨n, hn⟩ p kk a (⟨512 * s.val + kk.val, LibBlockSum.block_lt (a := 8) s kk⟩ : Fin 4096) ha
      (by show 512 * s.val + kk.val = 512 * (n % 8) + kk.val; rw [hs]),
    blk1_apply m c ⟨n, hn⟩ r kk b (⟨512 * s.val + kk.val, LibBlockSum.block_lt (a := 8) s kk⟩ : Fin 4096) hb
      (by show 512 * s.val + kk.val = 512 * (n % 8) + kk.val; rw [hs]),
    V_v0, V_v1]

/-- THE FINISHED ACCUMULATOR at the last point `t` of a run: what the point before left plus `t`'s chunk product is
    zero plus all eight chunk products, read in the argument arrays. -/
theorem acc_total (t : Fin cfg0.N) (h1 : t.val % 8 = 7) (hlt : t.val - 1 < cfg0.N) (p r : Fin 1024)
    (a : Fin 8192) (b : Fin 4096)
    (ha : a.val = 1024 * (t.val / 32) + p.val) (hb : b.val = 1024 * (t.val / 8 % 4) + r.val) :
    (outsAt0 m c (t.val - 1) hlt).2 (ix2 p r)
        + dotRows (iblk m c 0 t) (iblk m c 1 t) p r
      = (0 : EReal) + ∑ s : Fin 8, ∑ kk : Fin 512,
          argX m c (ix2 a (⟨512 * s.val + kk.val, LibBlockSum.block_lt (a := 8) s kk⟩ : Fin 4096))
            * (((argW m c (ix2 b (⟨512 * s.val + kk.val, LibBlockSum.block_lt (a := 8) s kk⟩ : Fin 4096))).toInt : ℝ) : EReal) := by
  have hN : t.val < 256 := lt_of_lt_of_eq t.isLt (show cfg0.N = 256 from N_0)
  have e1 : (t.val - 1) % 8 + 1 = 7 := by omega
  have e2 : 8 * ((t.val - 1) / 8) = 8 * (t.val / 8) := by omega
  have e3 : 8 * (t.val / 8) + 7 = t.val := by omega
  have hprev := scratch_after m c ⟨t.val - 1, hlt⟩ p r
  have hprev' : (outsAt0 m c (t.val - 1) hlt).2 (ix2 p r)
      = 0 + ∑ s ∈ Finset.range 7, chunk m c (8 * (t.val / 8) + s) p r := by
    rw [← e1, ← e2]; exact hprev
  have hlast : dotRows (iblk m c 0 t) (iblk m c 1 t) p r = chunk m c (8 * (t.val / 8) + 7) p r := by
    rw [e3]; unfold chunk; rw [dif_pos t.isLt]
  rw [hprev', hlast, add_assoc, ← Finset.sum_range_succ (fun s => chunk m c (8 * (t.val / 8) + s) p r) 7,
    Finset.sum_range (fun s => chunk m c (8 * (t.val / 8) + s) p r)]
  refine congrArg ((0 : EReal) + ·) (Finset.sum_congr rfl fun s _ => ?_)
  have hs := s.isLt
  have hlt' : 8 * (t.val / 8) + s.val < cfg0.N :=
    lt_of_lt_of_eq (by omega : 8 * (t.val / 8) + s.val < 256) (show cfg0.N = 256 from N_0).symm
  exact chunk_eq m c _ hlt' p r a b s (by rw [ha]; omega) (by rw [hb]; omega) (by omega)

/-- WHAT THE LAST POINT OF A RUN WRITES BACK is its block of `kerVal`. -/
theorem flushed_eq (t : Fin cfg0.N) (h1 : t.val % 8 = 7) :
    (dats m 0 c).flushed 6 t = ((cfg0.win 6).blk t).view.read (Elt Ideal) (kerVal m c) := by
  have h0 : ¬ t.val % 8 = 0 := by omega
  have hN : t.val < 256 := lt_of_lt_of_eq t.isLt (show cfg0.N = 256 from N_0)
  have hlt : t.val - 1 < cfg0.N := Nat.lt_of_le_of_lt (Nat.sub_le _ _) t.isLt
  rw [Value.flushed6_C m c t h0 h1]
  funext y
  obtain ⟨p, r, rfl⟩ : ∃ (p r : Fin 1024), y = ix2 p r := ⟨y 0, y 1, eq_ix2 y⟩
  rw [View.read_apply]
  obtain ⟨e0, e1⟩ := emb6_val t (ix2 p r)
  have ha : (1024 * (t.val / 32) + p.val) < 8192 := by omega
  have hb : (1024 * (t.val / 8 % 4) + r.val) < 4096 := by omega
  rw [kerVal_at m c _ (⟨1024 * (t.val / 32) + p.val, ha⟩ : Fin 8192) (⟨1024 * (t.val / 8 % 4) + r.val, hb⟩ : Fin 4096) e0 e1]
  show out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) hlt).2 (ix2 p r) = _
  refine (congrFun (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) hlt).2) (ix2 p r)).trans ?_
  refine (pay3_apply _ (iblk m c 2 t) (iblk m c 4 t) (iblk m c 3 t) (iblk m c 5 t) p r).trans ?_
  rw [pay2_rows (outsAt0 m c (t.val - 1) hlt).2 (iblk m c 0 t) (iblk m c 1 t) p r,
    acc_total m c t h1 hlt p r (⟨1024 * (t.val / 32) + p.val, ha⟩ : Fin 8192) (⟨1024 * (t.val / 8 % 4) + r.val, hb⟩ : Fin 4096) rfl rfl,
    blk2_apply m c t p (0 : Fin 1) (⟨1024 * (t.val / 32) + p.val, ha⟩ : Fin 8192) rfl,
    blk4_apply m c t (0 : Fin 1) r (⟨1024 * (t.val / 8 % 4) + r.val, hb⟩ : Fin 4096) rfl,
    blk3_apply m c t (0 : Fin 1) r (⟨1024 * (t.val / 8 % 4) + r.val, hb⟩ : Fin 4096) rfl,
    blk5_apply m c t (0 : Fin 1) r (⟨1024 * (t.val / 8 % 4) + r.val, hb⟩ : Fin 4096) rfl,
    V_v3, V_v5, V_v4, V_v6]
  rfl

/-- THE OUTPUT ARRAY after the run is `kerVal`: the written-back blocks are blocks of it and tile the array. -/
theorem final : (dats m 0 c).arrAt 6 cfg0.N = kerVal m c :=
  (dats m 0 c).arrAt_eq_of_cover 6 (kerVal m c) (fun t hf => flushed_eq m c t ((flush0_6 t).mp hf)) (fun i => cover6 i)

/-- The program's run with the output array named: every weakly fair execution terminates with the output at
    `kerVal` of the launch contents of the arguments, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v7) = kerVal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.QLinear

end
-- ==== Proof.RefValue.lean ====
/-
  The reference program's result read at an index.

  The reference dequantizes the whole weight matrix first, `(w[n, k] - z[n]) * s[n]`, then contracts each input row
  with each weight row and adds the bias. At output index `(a, b)` that is
      ∑ k, x[a, k] * ((w[b, k] - z[b]) * s[b]) + bias[b],
  the integer weight read as the real number it denotes. Each host operation is read at an index by its own lemma
  (the generated stages); this module only composes them and names the indices by their coordinates.
-/
import proofs.«136641_j48086453846078_2_alg».proof.Proof.Gen.ReferenceIdeal.Read
import Idealize.ShloMosaic.Lib.ValueIdx

noncomputable section

namespace Cert.QLinear

open Idealize.ShloMosaic Idealize.ShloMosaic.ValueIdx
open Cert.ReferenceIdeal Cert.ReferenceIdeal.Read

/-- The reference's result at `(a, b)`: input row `a` against the dequantized weight row `b`, plus the bias. -/
theorem ref_apply (x0 : (⟨S8192x4096, .f32⟩ : BufTy).Contents (Elt Ideal))
    (x1 : (⟨S4096x4096, .i32⟩ : BufTy).Contents (Elt Ideal))
    (x2 x3 x4 : (⟨S4096, .f32⟩ : BufTy).Contents (Elt Ideal)) (a : Fin 8192) (b : Fin 4096) :
    val_main_v10 (F := Ideal) x0 x1 x2 x3 x4 (ix2 a b)
      = (∑ k : Fin 4096, x0 (ix2 a k) * (((((x1 (ix2 b k)).toInt : ℝ) : EReal) - x3 (ix1 b)) * x2 (ix1 b)))
          + x4 (ix1 b) := by
  -- the contraction reads row `a` of the input and row `b` of the weights
  have e1 : ∀ k : Fin 4096, lidx_main_v7 (ix2 a b) k = ix2 a k := fun k =>
    funext fun d => Fin.ext (by match d with | ⟨0, _⟩ => rfl | ⟨1, _⟩ => rfl)
  have e2 : ∀ k : Fin 4096, ridx_main_v7 (ix2 a b) k = ix2 b k := fun k =>
    funext fun d => Fin.ext (by match d with | ⟨0, _⟩ => rfl | ⟨1, _⟩ => rfl)
  -- the zero point, the scale and the bias are broadcast from entry `b` of their vectors
  have e3 : ∀ k : Fin 4096, idx_main_v1 (idx_main_v2 (ix2 b k)) = ix1 b := fun k =>
    funext fun d => Fin.ext (by match d with | ⟨0, _⟩ => rfl)
  have e4 : ∀ k : Fin 4096, idx_main_v4 (idx_main_v5 (ix2 b k)) = ix1 b := fun k =>
    funext fun d => Fin.ext (by match d with | ⟨0, _⟩ => rfl)
  have e5 : idx_main_v8 (idx_main_v9 (ix2 a b)) = ix1 b :=
    funext fun d => Fin.ext (by match d with | ⟨0, _⟩ => rfl)
  rw [val_main_v10_apply, val_main_v7_apply, val_main_v9_apply, val_main_v8_apply, e5, Ideal.addf_def]
  refine congrArg (· + x4 (ix1 b)) (Finset.sum_congr rfl fun k _ => ?_)
  rw [e1, e2, val_main_v6_apply, val_main_v3_apply, val_main_v0_apply, val_main_v2_apply, val_main_v1_apply,
    val_main_v5_apply, val_main_v4_apply, e3, e4]
  rfl

end Cert.QLinear

end
-- ==== Proof.Finite.lean ====
/-
  From the certificate's precondition to "every float input entry is a real number".

  The precondition is a host program that, for each of the four float arrays (the activations, the scale, the zero
  point, the bias), compares the absolute value of every entry with +∞, reduces the comparisons by "and" over all axes
  to one bit, and joins the four bits by "and"; the claim states that the joint bit is 1. Read backwards: a conjunction
  of bits that is 1 has every bit 1; an "and"-reduction over all axes that is 1 met a 1 at every index; a comparison
  |x| < +∞ that came out 1 holds; and among the extended reals only the reals have an absolute value max x (-x) below
  +∞, because both infinities have absolute value +∞. The integer weights are not constrained and nothing is said of them.
-/
import proofs.«136641_j48086453846078_2_alg».proof.Defs
import proofs.«136641_j48086453846078_2_alg».proof.Proof.Gen.Pre_finite_inputs
import Idealize.ShloMosaic.Lib.ReduceAll
import Idealize.ShloMosaic.Lib.ValueIdx

noncomputable section

namespace Cert.QLinear

open Idealize.ShloMosaic Idealize.SL.Sem

/-- An extended real whose absolute value max x (-x) lies strictly below +∞ is a real number: the absolute value of
    either infinity is +∞ itself. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The f32 word with all exponent bits set, a clear sign and a zero significand denotes +∞. -/
theorem ofBits_inf_f32 : Ideal.ofBits .f32 0x7F800000#32 = (⊤ : EReal) := by
  simp [Ideal.ofBits, Ideal.ieee]

/-- The scalar shape has exactly one index. -/
instance subsingleton_scalar_idx : Subsingleton (⟨0, ![]⟩ : Shape).Idx := ⟨fun a b => funext fun d => d.elim0⟩

/-- One array, of any shape: if the "and" over all axes of the bits "|x i| < +∞" is 1, then every entry of x is a real
    number. -/
theorem real_of_all_abs_lt_inf {s u : Shape} {axes : List (Fin s.rank)}
    (x : FVec Ideal s .f32) (init : IVec u 1) (hb : (⟨0, ![]⟩ : Shape).BroadcastsInDim s (![] : Fin 0 → Fin s.rank))
    (hr : s.ReducesTo axes (⟨0, ![]⟩ : Shape)) (hu : 0 < u.numel)
    (e : Host.reduce IntOp.andi
          (cmpf .olt (Host.absf x) (broadcastInDim s ![] hb (constant (F := Ideal) (⟨0, ![]⟩ : Shape) .f32 0x7F800000#32)))
          init hr hu ValueIdx.ix0 = 1#1)
    (i : s.Idx) : ∃ r : ℝ, x i = (r : EReal) := by
  have hi := Host.reduce_andi_all _ init hr hu ValueIdx.ix0 e i
  apply real_of_abs_lt_top
  have hi' : Ideal.cmp .olt (max (x i) (-(x i))) (Ideal.ofBits .f32 0x7F800000#32) = 1#1 := hi
  rw [ofBits_inf_f32] at hi'
  unfold Ideal.cmp at hi'
  by_contra hn
  simp [hn] at hi'

/-- From the precondition: on every device each entry of the activations, the scale, the zero point and the bias is a
    real number. The precondition's bit is the conjunction of four "all entries finite" bits; each is read back by
    real_of_all_abs_lt_inf. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal)) := by
  have e := congrFun (h c) ValueIdx.ix0
  dsimp only [Cert.Pre_finite_inputs.fn, Cert.Pre_finite_inputs.fn_part1] at e
  obtain ⟨⟨⟨e0, e2⟩, e3⟩, e4⟩ :
      ((_ = 1#1 ∧ _ = 1#1) ∧ _ = 1#1) ∧ _ = 1#1 := by
    have e' := IntOp.andi_eq_one.1 e
    exact ⟨⟨IntOp.andi_eq_one.1 (IntOp.andi_eq_one.1 e'.1).1, (IntOp.andi_eq_one.1 e'.1).2⟩, e'.2⟩
  exact ⟨real_of_all_abs_lt_inf _ _ _ _ _ e0, real_of_all_abs_lt_inf _ _ _ _ _ e2,
    real_of_all_abs_lt_inf _ _ _ _ _ e3, real_of_all_abs_lt_inf _ _ _ _ _ e4⟩

end Cert.QLinear

end
-- ==== Proof.lean ====
/-
  A quantized linear layer, tiled, against its plain definition.

  The reference dequantizes each integer weight row `w[b, ·]` with the row's zero point and scale and contracts it
  with each input row:  y[a, b] = ∑ k, x[a, k] * ((w[b, k] - z[b]) * s[b]) + bias[b].
  The tiled program never forms the dequantized weights. On the host it takes the row sums of `x`; in the kernel it
  accumulates the plain products `∑ k, x[a, k] * w[b, k]` chunk by chunk along `k` into a scratch accumulator (cleared
  at the first chunk), and at the last chunk writes  (acc - rowsum[a] * z[b]) * s[b] + bias[b].
  Over the reals the two are equal because `z[b]` and `s[b]` factor out of the sum over `k`; this is distributivity,
  so it needs every float input to be finite, which is the certificate's precondition. A change of float format is
  the identity on the extended reals and an integer converts to the real number it denotes, in either format.

  The modules: Spec (the law over the reals, inside the extended reals), Bridge (the two arrangements as functions of
  the argument arrays, equal on finite inputs), RefValue (the reference read at an index), Finite (the precondition
  says every float entry is real), Payload (the body's arithmetic at an index), Pieces (what each control case
  leaves in the accumulator and in the output block), Blocks (where each block sits in its array; the written-back
  blocks tile the output), HostPrefix (what the host operations before the region leave in the region's inputs),
  Accum (the accumulator after any point as a finite sum), Final (the output array as one function of the arguments).
  The three frames are the generated ones; no operation of the program was rewritten by the idealization, so the
  preservation claim is trivial.
-/
import proofs.«136641_j48086453846078_2_alg».proof.Defs
import proofs.«136641_j48086453846078_2_alg».proof.Proof.Gen.Kernel
import proofs.«136641_j48086453846078_2_alg».proof.Proof.Gen.Kernel.Skeleton
import proofs.«136641_j48086453846078_2_alg».proof.Proof.Gen.Kernel.Launch
import proofs.«136641_j48086453846078_2_alg».proof.Proof.Gen.Kernel.Points
import proofs.«136641_j48086453846078_2_alg».proof.Proof.Gen.Kernel.Frame
import proofs.«136641_j48086453846078_2_alg».proof.Proof.Gen.KernelIdeal
import proofs.«136641_j48086453846078_2_alg».proof.Proof.Gen.KernelIdeal.Skeleton
import proofs.«136641_j48086453846078_2_alg».proof.Proof.Gen.KernelIdeal.Launch
import proofs.«136641_j48086453846078_2_alg».proof.Proof.Gen.KernelIdeal.Points
import proofs.«136641_j48086453846078_2_alg».proof.Proof.Gen.KernelIdeal.Frame
import proofs.«136641_j48086453846078_2_alg».proof.Proof.Gen.ReferenceIdeal
import proofs.«136641_j48086453846078_2_alg».proof.Proof.Gen.Pre_finite_inputs
import proofs.«136641_j48086453846078_2_alg».proof.Proof.Gen.KernelIdeal.Value
import proofs.«136641_j48086453846078_2_alg».proof.Proof.Gen.ReferenceIdeal.Run
import proofs.«136641_j48086453846078_2_alg».proof.Proof.Gen.ReferenceIdeal.Read
import proofs.«136641_j48086453846078_2_alg».proof.Proof.Final
import proofs.«136641_j48086453846078_2_alg».proof.Proof.RefValue
import proofs.«136641_j48086453846078_2_alg».proof.Proof.Finite
import proofs.«136641_j48086453846078_2_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: the idealized program is the program's own text read over the extended reals. -/
theorem preserves : Cert.preserves_Kernel_KernelIdeal := trivial

/-- From memories that agree on the arguments, and whose float arguments are finite, the tiled program ends with
    the output at the tiled arrangement of the arguments and the reference with its result at the plain one; on
    finite inputs the two arrangements are one function. -/
theorem algebraic : Cert.algebraic_KernelIdeal_ReferenceIdeal := by
  intro m ρ m' ρ' hpre hagree
  refine ⟨fun c => Cert.QLinear.kerVal m c, Cert.QLinear.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs, hz, hb⟩ := Cert.QLinear.finite_of_pre m hpre c
  rw [Cert.ReferenceIdeal.Read.val_main_v10_eq, (hagree c).1, (hagree c).2.1, (hagree c).2.2.1, (hagree c).2.2.2.1,
    (hagree c).2.2.2.2]
  funext i
  obtain ⟨a, b, rfl⟩ : ∃ (a : Fin 8192) (b : Fin 4096), i = ValueIdx.ix2 a b := ⟨i 0, i 1, ValueIdx.eq_ix2 i⟩
  rw [Cert.QLinear.ref_apply]
  exact ((Cert.QLinear.kerVal_at m c _ a b rfl rfl).trans
    (Cert.QLinear.ker_eq_ref _ _ _ _ _ hx hs hz hb a b)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
